-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x128x2048 : Shape := ⟨4, ![64, 1, 128, 2048]⟩
abbrev S256x64 : Shape := ⟨2, ![256, 64]⟩
abbrev S256 : Shape := ⟨1, ![256]⟩
abbrev S1x4096x256 : Shape := ⟨3, ![1, 4096, 256]⟩
abbrev S_ : Shape := ⟨0, ![]⟩

class Facts : Prop where
  bcast_S_S64x1x128x2048 : S_.BroadcastsInDim S64x1x128x2048 (![] : Fin 0 → Fin S64x1x128x2048.rank)
  reducesTo_S64x1x128x2048_S_d0_1_2_3 : S64x1x128x2048.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S1x4096x256 : S_.BroadcastsInDim S1x4096x256 (![] : Fin 0 → Fin S1x4096x256.rank)
  reducesTo_S1x4096x256_S_d0_1_2 : S1x4096x256.ReducesTo [0, 1, 2] S_

variable [Facts]

def fn_part1 {F : FTy → Type} [FloatOps F] (main_v13 : IVec S_ 1) (main_v16 : IVec S1x4096x256 1) : IVec S_ 1 :=
  let main_c_5 : IVec S_ 1 := constantI S_ 1 1#1
  let main_v17 : IVec S_ 1 := (fun x v => Host.reduce IntOp.andi x v reducesTo_S1x4096x256_S_d0_1_2 h_S_) main_v16 main_c_5
  let main_v18 : IVec S_ 1 := andi main_v13 main_v17
  main_v18

def fn {F : FTy → Type} [FloatOps F] (main_arg0 : FVec F S64x1x128x2048 .f32) (main_arg1 : FVec F S256x64 .f32) (main_arg2 : FVec F S256 .f32) (main_arg3 : FVec F S1x4096x256 .f32) : IVec S_ 1 :=
  let main_v0 : FVec F S64x1x128x2048 .f32 := Host.absf main_arg0
  let main_cst : FVec F S_ .f32 := constant S_ .f32 0x7F800000#32
  let main_v1 : FVec F S64x1x128x2048 .f32 := broadcastInDim S64x1x128x2048 ![] bcast_S_S64x1x128x2048 main_cst
  let main_v2 : IVec S64x1x128x2048 1 := cmpf .olt main_v0 main_v1
  let main_c : IVec S_ 1 := constantI S_ 1 1#1
  let main_v3 : IVec S_ 1 := (fun x v => Host.reduce IntOp.andi x v reducesTo_S64x1x128x2048_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x4096x256 .f32 := Host.absf main_arg3
  let main_cst_4 : FVec F S_ .f32 := constant S_ .f32 0x7F800000#32
  let main_v15 : FVec F S1x4096x256 .f32 := broadcastInDim S1x4096x256 ![] bcast_S_S1x4096x256 main_cst_4
  let main_v16 : IVec S1x4096x256 1 := cmpf .olt main_v14 main_v15
  fn_part1 (F := F) main_v13 main_v16
-- ==== Kernel.lean ====
abbrev S64x1x128x2048 : Shape := ⟨4, ![64, 1, 128, 2048]⟩
abbrev S256x64 : Shape := ⟨2, ![256, 64]⟩
abbrev S256 : Shape := ⟨1, ![256]⟩
abbrev S1x4096x256 : Shape := ⟨3, ![1, 4096, 256]⟩
abbrev S64x128x2048 : Shape := ⟨3, ![64, 128, 2048]⟩
abbrev S64x256 : Shape := ⟨2, ![64, 256]⟩
abbrev S1x256 : Shape := ⟨2, ![1, 256]⟩
abbrev S4096x256 : Shape := ⟨2, ![4096, 256]⟩
abbrev S64x4096x256 : Shape := ⟨3, ![64, 4096, 256]⟩
abbrev S1x128x2048 : Shape := ⟨3, ![1, 128, 2048]⟩
abbrev S128x2048 : Shape := ⟨2, ![128, 2048]⟩
abbrev S16x8x256x8 : Shape := ⟨4, ![16, 8, 256, 8]⟩
abbrev S16x256x8x8 : Shape := ⟨4, ![16, 256, 8, 8]⟩
abbrev S4096x64 : Shape := ⟨2, ![4096, 64]⟩

abbrev nBuf : Space → Nat
  | .hbm => 9
  | .vmem => 7
  | .smem => 0
  | _ => 0

abbrev bufTy : (tb : Table) → Fin (tcTables nBuf tb) → BufTy
  | .hbm, ⟨0, _⟩ => ⟨S64x1x128x2048, .f32⟩
  | .hbm, ⟨1, _⟩ => ⟨S256x64, .f32⟩
  | .hbm, ⟨2, _⟩ => ⟨S256, .f32⟩
  | .hbm, ⟨3, _⟩ => ⟨S1x4096x256, .f32⟩
  | .hbm, ⟨4, _⟩ => ⟨S64x128x2048, .f32⟩
  | .hbm, ⟨5, _⟩ => ⟨S64x256, .f32⟩
  | .hbm, ⟨6, _⟩ => ⟨S1x256, .f32⟩
  | .hbm, ⟨7, _⟩ => ⟨S4096x256, .f32⟩
  | .hbm, ⟨8, _⟩ => ⟨S64x4096x256, .f32⟩
  | .local _ .vmem, ⟨0, _⟩ => ⟨S1x128x2048, .f32⟩
  | .local _ .vmem, ⟨1, _⟩ => ⟨S1x128x2048, .f32⟩
  | .local _ .vmem, ⟨2, _⟩ => ⟨S64x256, .f32⟩
  | .local _ .vmem, ⟨3, _⟩ => ⟨S1x256, .f32⟩
  | .local _ .vmem, ⟨4, _⟩ => ⟨S4096x256, .f32⟩
  | .local _ .vmem, ⟨5, _⟩ => ⟨S1x4096x256, .f32⟩
  | .local _ .vmem, ⟨6, _⟩ => ⟨S1x4096x256, .f32⟩
  | _, _ => ⟨S64x1x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x1x128x2048_S64x128x2048 : S64x1x128x2048.ShapeCasts S64x128x2048
  transposes_S256x64_S64x256_1_0 : S256x64.Transposes [1, 0] S64x256
  shapeCasts_S256_S1x256 : S256.ShapeCasts S1x256
  shapeCasts_S1x4096x256_S4096x256 : S1x4096x256.ShapeCasts S4096x256
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S16x8x256x8 : S128x2048.ShapeCasts S16x8x256x8
  transposes_S16x8x256x8_p0_2_1_3_S16x256x8x8 : S16x8x256x8.Transposes [0, 2, 1, 3] S16x256x8x8
  shapeCasts_S16x256x8x8_S4096x64 : S16x256x8x8.ShapeCasts S4096x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096x256_S1x4096x256_0_0_0 : ∀ a, (![0, 0, 0] : Fin 3 → Nat) a + S1x4096x256.size a ≤ S1x4096x256.size a
  h_S1x4096x256 : 0 < S1x4096x256.numel
  shapeCasts_S4096x256_S1x4096x256 : S4096x256.ShapeCasts S1x4096x256
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S64x128x2048.size a
  hwx0_0 : ∀ i : grid0.Coords, EltTy.bits .f32 = 32 ∨ (Rect.block (s := S64x128x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x256.size a ≤ S64x4096x256.size a
  hwx0_4 : ∀ i : grid0.Coords, EltTy.bits .f32 = 32 ∨ (Rect.block (s := S64x4096x256) S1x4096x256.size (cc0_transform_4 i) (hinb0_4 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_v0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1x128x2048 : Shape := ⟨4, ![64, 1, 128, 2048]⟩
abbrev S256x64 : Shape := ⟨2, ![256, 64]⟩
abbrev S256 : Shape := ⟨1, ![256]⟩
abbrev S1x4096x256 : Shape := ⟨3, ![1, 4096, 256]⟩
abbrev S64x128x2048 : Shape := ⟨3, ![64, 128, 2048]⟩
abbrev S64x16x8x256x8 : Shape := ⟨5, ![64, 16, 8, 256, 8]⟩
abbrev S64x16x256x8x8 : Shape := ⟨5, ![64, 16, 256, 8, 8]⟩
abbrev S64x4096x64 : Shape := ⟨3, ![64, 4096, 64]⟩
abbrev S64x4096x256 : Shape := ⟨3, ![64, 4096, 256]⟩
abbrev S1x1x256 : Shape := ⟨3, ![1, 1, 256]⟩

abbrev nBuf : Space → Nat
  | .hbm => 14
  | .vmem => 0
  | .smem => 0
  | _ => 0

abbrev bufTy : (tb : Table) → Fin (tcTables nBuf tb) → BufTy
  | .hbm, ⟨0, _⟩ => ⟨S64x1x128x2048, .f32⟩
  | .hbm, ⟨1, _⟩ => ⟨S256x64, .f32⟩
  | .hbm, ⟨2, _⟩ => ⟨S256, .f32⟩
  | .hbm, ⟨3, _⟩ => ⟨S1x4096x256, .f32⟩
  | .hbm, ⟨4, _⟩ => ⟨S64x128x2048, .f32⟩
  | .hbm, ⟨5, _⟩ => ⟨S64x16x8x256x8, .f32⟩
  | .hbm, ⟨6, _⟩ => ⟨S64x16x256x8x8, .f32⟩
  | .hbm, ⟨7, _⟩ => ⟨S64x4096x64, .f32⟩
  | .hbm, ⟨8, _⟩ => ⟨S64x4096x256, .f32⟩
  | .hbm, ⟨9, _⟩ => ⟨S1x1x256, .f32⟩
  | .hbm, ⟨10, _⟩ => ⟨S64x4096x256, .f32⟩
  | .hbm, ⟨11, _⟩ => ⟨S64x4096x256, .f32⟩
  | .hbm, ⟨12, _⟩ => ⟨S64x4096x256, .f32⟩
  | .hbm, ⟨13, _⟩ => ⟨S64x4096x256, .f32⟩
  | _, _ => ⟨S64x1x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S64x1x128x2048_S64x128x2048 : S64x1x128x2048.ShapeCasts S64x128x2048
  shapeCasts_S64x128x2048_S64x16x8x256x8 : S64x128x2048.ShapeCasts S64x16x8x256x8
  transposes_S64x16x8x256x8_S64x16x256x8x8_0_1_3_2_4 : S64x16x8x256x8.Transposes [0, 1, 3, 2, 4] S64x16x256x8x8
  shapeCasts_S64x16x256x8x8_S64x4096x64 : S64x16x256x8x8.ShapeCasts S64x4096x64
  bcast_S256_S1x1x256_2 : S256.BroadcastsInDim S1x1x256 (![2] : Fin 1 → Fin S1x1x256.rank)
  bcast_S1x1x256_S64x4096x256_0_1_2 : S1x1x256.BroadcastsInDim S64x4096x256 (![0, 1, 2] : Fin 3 → Fin S64x4096x256.rank)
  bcast_S1x4096x256_S64x4096x256_0_1_2 : S1x4096x256.BroadcastsInDim S64x4096x256 (![0, 1, 2] : Fin 3 → Fin S64x4096x256.rank)
  dot_S64x4096x64_S256x64_S64x4096x256_2_1_01_0_n_n_wf : DotDims.WF S64x4096x64 S256x64 S64x4096x256 [2] [1] [0, 1] [0] [] []

variable [Facts₀]

def dot_S64x4096x64_S256x64_S64x4096x256_2_1_01_0_n_n : DotDims S64x4096x64 S256x64 S64x4096x256 where
  lhsContracting := [2]
  rhsContracting := [1]
  lhsNonContracting := [0, 1]
  rhsNonContracting := [0]
  lhsBatch := []
  rhsBatch := []
  wf := dot_S64x4096x64_S256x64_S64x4096x256_2_1_01_0_n_n_wf

class Facts : Prop extends Facts₀ where

variable [Facts]
-- ==== Proof.Spec.lean ====
/-
  The patch embedding as one function of the four argument arrays.

  An image `x[b, 0, ·, ·]` of 128 × 2048 entries is cut into a 16 × 256 grid of 8 × 8 patches. Patch `n` sits at grid
  position `(n / 256, n % 256)`, and its entry `k` (of 64) is the pixel at offset `(k / 8, k % 8)` inside the patch: pixel
  row `(n / 256) · 8 + k / 8` and pixel column `(n % 256) · 8 + k % 8`. The embedding of patch `n` of image `b` on output
  channel `e` is the linear layer's value plus the positional term:

      (Σ_{k < 64} x[b, 0, row n k, col n k] · W[e, k]) + bias[e] + pos[0, n, e].

  Both programs are shown to compute exactly this function, on the extended reals.
-/
import Idealize.ShloMosaic.PureOps.Ideal
import Idealize.ShloMosaic.Lib.ValueIdx

noncomputable section

open scoped BigOperators

namespace Cert.PatchEmbed

open Idealize.ShloMosaic Idealize.ShloMosaic.ValueIdx

/-- The pixel row of entry `k` of patch `n`. -/
abbrev pixRow (n : Fin 4096) (k : Fin 64) : Fin 128 := ⟨n.val / 256 * 8 + k.val / 8, by omega⟩

/-- The pixel column of entry `k` of patch `n`. -/
abbrev pixCol (n : Fin 4096) (k : Fin 64) : Fin 2048 := ⟨n.val % 256 * 8 + k.val % 8, by omega⟩

/-- One entry of the embedding: image `bt`, patch `n`, channel `e`. -/
def entry (x : (⟨4, ![64, 1, 128, 2048]⟩ : Shape).Idx → EReal) (w : (⟨2, ![256, 64]⟩ : Shape).Idx → EReal)
    (bias : (⟨1, ![256]⟩ : Shape).Idx → EReal) (pos : (⟨3, ![1, 4096, 256]⟩ : Shape).Idx → EReal)
    (bt : Fin 64) (n : Fin 4096) (e : Fin 256) : EReal :=
  (∑ k : Fin 64, x (ix4 bt (0 : Fin 1) (pixRow n k) (pixCol n k)) * w (ix2 e k)) + bias (ix1 e) + pos (ix3 (0 : Fin 1) n e)

/-- The whole embedding, index by index. -/
def embed (x : (⟨4, ![64, 1, 128, 2048]⟩ : Shape).Idx → EReal) (w : (⟨2, ![256, 64]⟩ : Shape).Idx → EReal)
    (bias : (⟨1, ![256]⟩ : Shape).Idx → EReal) (pos : (⟨3, ![1, 4096, 256]⟩ : Shape).Idx → EReal) :
    (⟨3, ![64, 4096, 256]⟩ : Shape).Idx → EReal :=
  fun i => entry x w bias pos (i 0) (i 1) (i 2)

/-- At an index given by its coordinates the embedding is that entry. -/
theorem embed_ix3 (x : (⟨4, ![64, 1, 128, 2048]⟩ : Shape).Idx → EReal) (w : (⟨2, ![256, 64]⟩ : Shape).Idx → EReal)
    (bias : (⟨1, ![256]⟩ : Shape).Idx → EReal) (pos : (⟨3, ![1, 4096, 256]⟩ : Shape).Idx → EReal)
    (bt : Fin 64) (n : Fin 4096) (e : Fin 256) :
    embed x w bias pos (ix3 bt n e) = entry x w bias pos bt n e := rfl

end Cert.PatchEmbed

end
-- ==== Proof.Payload.lean ====
/-
  What the kernel body stores, read at one entry.

  At a grid point the body holds one image block `v0 : [1, 128, 2048]`, the transposed weights `v6 : [64, 256]`, the bias
  row `v10 : [1, 256]` and the positional table `v14 : [4096, 256]`. It re-lays the image into the patch matrix
  `[4096, 64]` (drop the unit axis, split rows 16 × 8 and columns 256 × 8, swap the middle axes, merge), multiplies it with
  the weights into a zero accumulator, and adds the bias row and the positional table. At the ideal values the narrowing to
  bf16 in front of the product is the identity, the product at `(n, e)` is the plain sum over the 64 entries, and so the
  stored value at `(0, n, e)` is

      (Σ_{k < 64} v0[0, (n / 256) · 8 + k / 8, (n % 256) · 8 + k % 8] · v6[k, e]) + v10[0, e] + v14[n, e].
-/
import proofs.«157923_j5523327943160_1_alg».proof.Proof.Gen.KernelIdeal.Skeleton
import proofs.«157923_j5523327943160_1_alg».proof.Proof.Spec
import Idealize.ShloMosaic.Lib.ValueLayout
import Idealize.ShloMosaic.PureOps.Ideal.Laws

noncomputable section

open scoped BigOperators

namespace Cert.KernelIdeal.Hand

open Cert.KernelIdeal Cert.KernelIdeal.Gen Cert.PatchEmbed
open Idealize.ShloMosaic Idealize.ShloMosaic.ValueIdx

/-- THE PATCH MATRIX AT AN ENTRY. Row `n`, column `k` of the re-laid image is the pixel of patch `n`'s entry `k`: the merge
    is undone by `n = (n / 256) · 256 + n % 256` and `k = (k / 8) · 8 + k % 8`, the swap exchanges the inner row offset with the
    patch's column position, and the split is undone by row `= (n / 256) · 8 + k / 8`, column `= (n % 256) · 8 + k % 8`. -/
theorem patches_at {α : Type} (v0 : S1x128x2048.Idx → α) (h1 : S1x128x2048.ShapeCasts S128x2048)
    (h2 : S128x2048.ShapeCasts S16x8x256x8) (h3 : S16x8x256x8.Transposes [0, 2, 1, 3] S16x256x8x8)
    (h4 : S16x256x8x8.ShapeCasts S4096x64) (n : Fin 4096) (k : Fin 64) :
    shapeCast S4096x64 (transpose S16x256x8x8 [0, 2, 1, 3] (shapeCast S16x8x256x8 (shapeCast S128x2048 v0 h1) h2) h3) h4 (ix2 n k)
      = v0 (ix3 (0 : Fin 1) (pixRow n k) (pixCol n k)) := by
  have hn := n.isLt; have hk := k.isLt
  refine (shapeCast_apply _ h4 (ix2 n k)
    (ix4 (⟨n.val / 256, by omega⟩ : Fin 16) (⟨n.val % 256, by omega⟩ : Fin 256) (⟨k.val / 8, by omega⟩ : Fin 8) (⟨k.val % 8, by omega⟩ : Fin 8)) ?_).trans ?_
  · rw [Shape.rowMajor_val_four, Shape.rowMajor_val_two]
    show ((n.val / 256 * 256 + n.val % 256) * 8 + k.val / 8) * 8 + k.val % 8 = n.val * 64 + k.val
    omega
  refine (transpose_apply [0, 2, 1, 3] _ h3 _
    (ix4 (⟨n.val / 256, by omega⟩ : Fin 16) (⟨k.val / 8, by omega⟩ : Fin 8) (⟨n.val % 256, by omega⟩ : Fin 256) (⟨k.val % 8, by omega⟩ : Fin 8))
    (fun b => match b with | ⟨0, _⟩ => rfl | ⟨1, _⟩ => rfl | ⟨2, _⟩ => rfl | ⟨3, _⟩ => rfl)).trans ?_
  refine (shapeCast_apply _ h2 _ (ix2 (pixRow n k) (pixCol n k)) ?_).trans ?_
  · rw [Shape.rowMajor_val_two, Shape.rowMajor_val_four]
    show (n.val / 256 * 8 + k.val / 8) * 2048 + (n.val % 256 * 8 + k.val % 8)
      = ((n.val / 256 * 8 + k.val / 8) * 256 + n.val % 256) * 8 + k.val % 8
    omega
  exact shapeCast_1ab_ab_apply v0 h1 _ _

/-- The product's left operand index at output `(n, e)`: row `n` on the kept axis. -/
theorem dot_lhs_row (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide),
    dif_pos (show (0 : Fin S4096x64.rank) ∈ dot_S4096x64_S64x256_S4096x256_1_0_0_1_n_n.lhsNonContracting by decide)]
  rfl

/-- The product's right operand index at output `(n, e)`: column `e` on the kept axis. -/
theorem dot_rhs_col (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide),
    dif_pos (show (1 : Fin S64x256.rank) ∈ dot_S4096x64_S64x256_S4096x256_1_0_0_1_n_n.rhsNonContracting by decide)]
  rfl

/-- THE PRODUCT AT AN ENTRY: into the zero accumulator, at the ideal values, the plain sum over the 64 contracted entries. -/
theorem dot_at (lhs : FVec Ideal S4096x64 .bf16) (rhs : FVec Ideal S64x256 .bf16) (n : Fin 4096) (e : Fin 256) :
    matmul dot_S4096x64_S64x256_S4096x256_1_0_0_1_n_n none lhs rhs (constant S4096x256 .f32 0x00000000#32) (ix2 n e)
      = ∑ k : Fin 64, lhs (ix2 n k) * rhs (ix2 k e) := by
  simp only [matmul]
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 n e) ((contrEquiv1 dot_S4096x64_S64x256_S4096x256_1_0_0_1_n_n 64 rfl rfl).symm k) = ix2 n k :=
    funext fun a => Fin.ext (by
      match a with
      | ⟨0, _⟩ => exact dot_lhs_row _ _
      | ⟨1, _⟩ => exact (dot_S4096x64_S64x256_S4096x256_1_0_0_1_n_n.lhsIdx_val_of_single rfl _ _).trans hk)
  have er : dot_S4096x64_S64x256_S4096x256_1_0_0_1_n_n.rhsIdx (ix2 n e) ((contrEquiv1 dot_S4096x64_S64x256_S4096x256_1_0_0_1_n_n 64 rfl rfl).symm k) = ix2 k e :=
    funext fun a => Fin.ext (by
      match a with
      | ⟨0, _⟩ => exact (dot_S4096x64_S64x256_S4096x256_1_0_0_1_n_n.rhsIdx_val_of_single rfl _ _).trans hk
      | ⟨1, _⟩ => exact dot_rhs_col _ _)
  rw [el, er]

/-- THE STORED VALUE AT AN ENTRY, at the ideal values. -/
theorem stored_at (v0 : Vec Ideal S1x128x2048 .f32) (v6 : Vec Ideal S64x256 .f32) (v10 : Vec Ideal S1x256 .f32)
    (v14 : Vec Ideal S4096x256 .f32) (u : Fin 1) (n : Fin 4096) (e : Fin 256) :
    k0_pay1 (F := Ideal) v0 v6 v10 v14 (ix3 u n e)
      = (∑ k : Fin 64, v0 (ix3 (0 : Fin 1) (pixRow n k) (pixCol n k)) * v6 (ix2 k e)) + v10 (ix2 (0 : Fin 1) e) + v14 (ix2 n e) := by
  unfold k0_pay1
  simp only [shapeCast_self]
  refine (shapeCast_ab_1ab_apply _ _ u n e).trans ?_
  rw [addf_apply, addf_apply, broadcastTo_1b_ab_apply, dot_at]
  simp only [truncf_apply]
  refine congrArg (· + v14 (ix2 n e)) (congrArg (· + v10 (ix2 (0 : Fin 1) e)) (Finset.sum_congr rfl fun k _ => ?_))
  exact congrArg (· * v6 (ix2 k e)) (patches_at v0 _ _ _ _ n k)

end Cert.KernelIdeal.Hand

end
-- ==== Proof.HostPrefix.lean ====
/-
  The four arrays the kernel's call is given, as the host operations in front of it leave them.

  Before the call the program drops the unit channel axis of the images (`[64, 1, 128, 2048]` to `[64, 128, 2048]`),
  transposes the weights (`[256, 64]` to `[64, 256]`), views the bias as one row (`[256]` to `[1, 256]`) and drops the unit
  leading axis of the positional table (`[1, 4096, 256]` to `[4096, 256]`). Each is read here at an entry as one entry of
  the argument it was made from.
-/
import proofs.«157923_j5523327943160_1_alg».proof.Proof.Gen.KernelIdeal.Frame
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The images with the unit channel axis dropped. -/
theorem V_images (c : Dev nD) :
    (V m c main_v0 : S64x128x2048.Idx → Elt F .f32)
      = shapeCast S64x128x2048 (m ((c : Thread nD τ).loc main_arg0)) shapeCasts_S64x1x128x2048_S64x128x2048 := by
  dsimp only [Gen.V, Gen.hostOps0]; after_results <;> rfl

/-- The weights transposed. -/
theorem V_weights (c : Dev nD) :
    (V m c main_v1 : S64x256.Idx → Elt F .f32)
      = transpose S64x256 [1, 0] (m ((c : Thread nD τ).loc main_arg1)) transposes_S256x64_S64x256_1_0 := by
  dsimp only [Gen.V, Gen.hostOps0]; after_results <;> rfl

/-- The bias as one row. -/
theorem V_bias (c : Dev nD) :
    (V m c main_v2 : S1x256.Idx → Elt F .f32)
      = shapeCast S1x256 (m ((c : Thread nD τ).loc main_arg2)) shapeCasts_S256_S1x256 := by
  dsimp only [Gen.V, Gen.hostOps0]; after_results <;> rfl

/-- The positional table with its unit leading axis dropped. -/
theorem V_pos (c : Dev nD) :
    (V m c main_v3 : S4096x256.Idx → Elt F .f32)
      = shapeCast S4096x256 (m ((c : Thread nD τ).loc main_arg3)) shapeCasts_S1x4096x256_S4096x256 := by
  dsimp only [Gen.V, Gen.hostOps0]; after_results <;> rfl

/-- Image `bt`, pixel `(r, cl)`: an index `i` with those coordinates reads the argument at `(bt, 0, r, cl)`. -/
theorem images_at (c : Dev nD) (i : S64x128x2048.Idx) (bt : Fin 64) (r : Fin 128) (cl : Fin 2048)
    (h0 : (i 0).val = bt.val) (h1 : (i 1).val = r.val) (h2 : (i 2).val = cl.val) :
    (V m c main_v0 : S64x128x2048.Idx → Elt F .f32) i
      = (m ((c : Thread nD τ).loc main_arg0) : S64x1x128x2048.Idx → Elt F .f32) (ix4 bt (0 : Fin 1) r cl) := by
  rw [V_images]
  exact shapeCast_apply _ _ i _ (by
    show (S64x1x128x2048.rowMajor (ix4 bt (0 : Fin 1) r cl)).val = (S64x128x2048.rowMajor i).val
    rw [Shape.rowMajor_val_four, Shape.rowMajor_val_three]
    show ((bt.val * 1 + 0) * 128 + r.val) * 2048 + cl.val = ((i 0).val * 128 + (i 1).val) * 2048 + (i 2).val
    omega)

/-- Entry `k`, channel `e` of the transposed weights (an index `i` with those coordinates) is the weight of channel `e` on entry `k`. -/
theorem weights_at (c : Dev nD) (i : S64x256.Idx) (k : Fin 64) (e : Fin 256) (h0 : (i 0).val = k.val) (h1 : (i 1).val = e.val) :
    (V m c main_v1 : S64x256.Idx → Elt F .f32) i
      = (m ((c : Thread nD τ).loc main_arg1) : S256x64.Idx → Elt F .f32) (ix2 e k) := by
  obtain rfl : i = ix2 k e := funext fun a => Fin.ext (by match a with | ⟨0, _⟩ => exact h0 | ⟨1, _⟩ => exact h1)
  rw [V_weights]
  exact transpose_ix2_apply _ _ k e

/-- The bias row at channel `e` is the bias of channel `e`. -/
theorem bias_at (c : Dev nD) (i : S1x256.Idx) (e : Fin 256) (h1 : (i 1).val = e.val) :
    (V m c main_v2 : S1x256.Idx → Elt F .f32) i
      = (m ((c : Thread nD τ).loc main_arg2) : S256.Idx → Elt F .f32) (ix1 e) := by
  obtain rfl : i = ix2 (0 : Fin 1) e := funext fun a => Fin.ext (by
    match a with
    | ⟨0, _⟩ => have h : (i 0).val < 1 := (i 0).isLt; show (i 0).val = 0; omega
    | ⟨1, _⟩ => exact h1)
  rw [V_bias]
  exact shapeCast_a_1a_apply _ _ (0 : Fin 1) e

/-- The positional table at patch `n`, channel `e`. -/
theorem pos_at (c : Dev nD) (i : S4096x256.Idx) (n : Fin 4096) (e : Fin 256) (h0 : (i 0).val = n.val) (h1 : (i 1).val = e.val) :
    (V m c main_v3 : S4096x256.Idx → Elt F .f32) i
      = (m ((c : Thread nD τ).loc main_arg3) : S1x4096x256.Idx → Elt F .f32) (ix3 (0 : Fin 1) n e) := by
  obtain rfl : i = ix2 n e := funext fun a => Fin.ext (by match a with | ⟨0, _⟩ => exact h0 | ⟨1, _⟩ => exact h1)
  rw [V_pos]
  exact shapeCast_1ab_ab_apply _ _ n e

end Cert.KernelIdeal.Hand

end
-- ==== Proof.Blocks.lean ====
/-
  From what each grid point writes back to the whole result array.

  Grid point `t` (one per image, 64 of them) is given image `t` as its `[1, 128, 2048]` block, and the whole of the
  transposed weights, the bias row and the positional table; it writes back the `[1, 4096, 256]` block `t` of the result.
  The stored value at `(0, n, e)` (the payload read at an entry), with each of the four blocks read back to the argument it
  came from, is the patch embedding at `(t, n, e)`: what point `t` writes back is block `t` of the one whole-array function
  `embed`. The 64 blocks tile the result array along its first axis — index `(b, n, e)` lies in block `b` — so after the
  run the array is `embed` of the arguments.
-/
import proofs.«157923_j5523327943160_1_alg».proof.Proof.Gen.KernelIdeal.Value
import proofs.«157923_j5523327943160_1_alg».proof.Proof.Payload
import proofs.«157923_j5523327943160_1_alg».proof.Proof.HostPrefix
import proofs.«157923_j5523327943160_1_alg».proof.Proof.Spec
import Idealize.ShloMosaic.Lib.Pipeline.Value

noncomputable section

open scoped BigOperators

namespace Cert.KernelIdeal.Hand

open Cert.KernelIdeal Cert.KernelIdeal.Gen Cert.KernelIdeal.Value Cert.PatchEmbed
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices at grid point `t`: the image window and the result window are at block `t` of their first axis,
    the three resident windows at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- A grid point is below 64. -/
theorem point_lt (t : Fin cfg0.N) : t.val < 64 := lt_of_lt_of_eq t.isLt N_0

/-- The image block at point `t` is image `t`. -/
theorem image_block (c : Dev nD) (t : Fin cfg0.N) (r : Fin 128) (cl : Fin 2048) :
    (iblk m c 0 t : Vec Ideal S1x128x2048 .f32) (ix3 (0 : Fin 1) r cl)
      = (m ((c : Thread nD τ).loc main_arg0) : S64x1x128x2048.Idx → EReal) (ix4 (⟨t.val, point_lt t⟩ : Fin 64) (0 : Fin 1) r cl) := by
  obtain ⟨e0, e1, e2, -⟩ := idx_facts t
  unfold iblk
  rw [View.read_apply]
  show V m c main_v0 _ = _
  refine images_at m c _ _ _ _ ?_ ?_ ?_
  · show win0_0.index t (0 : Fin 3) * 1 + 1 * 0 = t.val; omega
  · show win0_0.index t (1 : Fin 3) * 128 + 1 * r.val = r.val; omega
  · show win0_0.index t (2 : Fin 3) * 2048 + 1 * cl.val = cl.val; omega

/-- The weights block at any point is the whole of the transposed weights. -/
theorem weights_block (c : Dev nD) (t : Fin cfg0.N) (k : Fin 64) (e : Fin 256) :
    (iblk m c 1 t : Vec Ideal S64x256 .f32) (ix2 k e)
      = (m ((c : Thread nD τ).loc main_arg1) : S256x64.Idx → EReal) (ix2 e k) := by
  obtain ⟨-, -, -, e0, e1, -⟩ := idx_facts t
  unfold iblk
  rw [View.read_apply]
  show V m c main_v1 _ = _
  refine weights_at m c _ _ _ ?_ ?_
  · show win0_1.index t (0 : Fin 2) * 64 + 1 * k.val = k.val; omega
  · show win0_1.index t (1 : Fin 2) * 256 + 1 * e.val = e.val; omega

/-- The bias block at any point is the bias row. -/
theorem bias_block (c : Dev nD) (t : Fin cfg0.N) (e : Fin 256) :
    (iblk m c 2 t : Vec Ideal S1x256 .f32) (ix2 (0 : Fin 1) e)
      = (m ((c : Thread nD τ).loc main_arg2) : S256.Idx → EReal) (ix1 e) := by
  obtain ⟨-, -, -, -, -, e0, e1, -⟩ := idx_facts t
  unfold iblk
  rw [View.read_apply]
  show V m c main_v2 _ = _
  refine bias_at m c _ _ ?_
  show win0_2.index t (1 : Fin 2) * 256 + 1 * e.val = e.val; omega

/-- The positional block at any point is the whole positional table. -/
theorem pos_block (c : Dev nD) (t : Fin cfg0.N) (n : Fin 4096) (e : Fin 256) :
    (iblk m c 3 t : Vec Ideal S4096x256 .f32) (ix2 n e)
      = (m ((c : Thread nD τ).loc main_arg3) : S1x4096x256.Idx → EReal) (ix3 (0 : Fin 1) n e) := by
  obtain ⟨-, -, -, -, -, -, -, e0, e1, -⟩ := idx_facts t
  unfold iblk
  rw [View.read_apply]
  show V m c main_v3 _ = _
  refine pos_at m c _ _ _ ?_ ?_
  · show win0_3.index t (0 : Fin 2) * 4096 + 1 * n.val = n.val; omega
  · show win0_3.index t (1 : Fin 2) * 256 + 1 * e.val = e.val; omega

/-- THE STORED BLOCK IS A BLOCK OF THE EMBEDDING. For blocks that read back to the arguments as the four hypotheses say
    (the image block is image `bt`), the stored value at a block index `y` is the embedding at the array index `i` with
    image coordinate `bt` and `y`'s patch and channel coordinates. -/
theorem stored_is_embed (x : S64x1x128x2048.Idx → EReal) (w : S256x64.Idx → EReal) (bias : S256.Idx → EReal)
    (pos : S1x4096x256.Idx → EReal) (bt : Fin 64)
    (v0 : Vec Ideal S1x128x2048 .f32) (v6 : Vec Ideal S64x256 .f32) (v10 : Vec Ideal S1x256 .f32) (v14 : Vec Ideal S4096x256 .f32)
    (h0 : ∀ (r : Fin 128) (cl : Fin 2048), v0 (ix3 (0 : Fin 1) r cl) = x (ix4 bt (0 : Fin 1) r cl))
    (h6 : ∀ (k : Fin 64) (e : Fin 256), v6 (ix2 k e) = w (ix2 e k))
    (h10 : ∀ e : Fin 256, v10 (ix2 (0 : Fin 1) e) = bias (ix1 e))
    (h14 : ∀ (n : Fin 4096) (e : Fin 256), v14 (ix2 n e) = pos (ix3 (0 : Fin 1) n e))
    (y : S1x4096x256.Idx) (i : S64x4096x256.Idx)
    (hi0 : (i 0).val = bt.val) (hi1 : (i 1).val = (y 1).val) (hi2 : (i 2).val = (y 2).val) :
    k0_pay1 (F := Ideal) v0 v6 v10 v14 y = embed x w bias pos i := by
  obtain ⟨u, n, e, rfl⟩ : ∃ (u : Fin 1) (n : Fin 4096) (e : Fin 256), y = ix3 u n e := ⟨y 0, y 1, y 2, eq_ix3 y⟩
  obtain rfl : i = ix3 bt n e := funext fun a => Fin.ext (by
    match a with | ⟨0, _⟩ => exact hi0 | ⟨1, _⟩ => exact hi1 | ⟨2, _⟩ => exact hi2)
  rw [stored_at, embed_ix3]
  unfold entry
  simp only [h0, h6, h10, h14]

/-- WHAT POINT `t` WRITES BACK is block `t` of the embedding of the argument arrays. -/
theorem flushed_is_embed (c : Dev nD) (t : Fin cfg0.N) :
    (dats m 0 c).flushed 4 t = ((cfg0.win 4).blk t).view.read (Elt Ideal)
      (embed (m ((c : Thread nD τ).loc main_arg0)) (m ((c : Thread nD τ).loc main_arg1))
        (m ((c : Thread nD τ).loc main_arg2)) (m ((c : Thread nD τ).loc main_arg3))) := by
  rw [flushed4]
  unfold out0_4
  rw [View.canon_unit_zero zeros3]
  simp only [View.ld_unit_zero (S := S1x128x2048) zeros3, View.ld_unit_zero (S := S64x256) zeros2,
    View.ld_unit_zero (S := S1x256) zeros2, View.ld_unit_zero (S := S4096x256) zeros2]
  obtain ⟨-, -, -, -, -, -, -, -, -, e0, e1, e2⟩ := idx_facts t
  funext y
  show k0_pay1 (iblk m c 0 t) (iblk m c 1 t) (iblk m c 2 t) (iblk m c 3 t) y
    = embed (m ((c : Thread nD τ).loc main_arg0)) (m ((c : Thread nD τ).loc main_arg1))
        (m ((c : Thread nD τ).loc main_arg2)) (m ((c : Thread nD τ).loc main_arg3)) (((cfg0.win 4).blk t).view.emb y)
  have hy0 : (y 0).val < 1 := (y 0).isLt
  refine stored_is_embed _ _ _ _ ⟨t.val, point_lt t⟩ (iblk m c 0 t) (iblk m c 1 t) (iblk m c 2 t) (iblk m c 3 t)
    (image_block m c t) (weights_block m c t) (bias_block m c t) (pos_block m c t) y _ ?_ ?_ ?_
  · show win0_4.index t (0 : Fin 3) * 1 + 1 * (y 0).val = t.val; omega
  · show win0_4.index t (1 : Fin 3) * 4096 + 1 * (y 1).val = (y 1).val; omega
  · show win0_4.index t (2 : Fin 3) * 256 + 1 * (y 2).val = (y 2).val; omega

/-- An index of the result array is in point `t`'s block iff each coordinate is in the block's range on its axis. -/
theorem mem_block (t : Fin cfg0.N) (i : S64x4096x256.Idx) :
    i ∈ ((cfg0.win 4).blk t).view.set ↔ ∀ a : Fin 3, win0_4.index t a * S1x4096x256.size a ≤ (i a).val
      ∧ (i a).val < win0_4.index t a * S1x4096x256.size a + S1x4096x256.size a := by
  show i ∈ ((View.whole main_v4).slice (win0_4.rect t)).set ↔ _
  rw [View.set_slice_whole, Rect.mem_set_unit]
  exact Iff.rfl

/-- THE BLOCKS TILE THE ARRAY: index `(b, n, e)` lies in the block of grid point `b`. -/
theorem covered (i : S64x4096x256.Idx) :
    ∃ t : Fin cfg0.N, (cfg0.win 4).flush t = true ∧ i ∈ ((cfg0.win 4).blk t).view.set := by
  have h0 : (i 0).val < 64 := (i 0).isLt
  have h1 : (i 1).val < 4096 := (i 1).isLt
  have h2 : (i 2).val < 256 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, e0, e1, e2⟩ := idx_facts t
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4096 ≤ (i 1).val ∧ (i 1).val < win0_4.index t (1 : Fin 3) * 4096 + 4096; omega
  | ⟨2, _⟩ => show win0_4.index t (2 : Fin 3) * 256 ≤ (i 2).val ∧ (i 2).val < win0_4.index t (2 : Fin 3) * 256 + 256; omega

/-- THE RESULT ARRAY after the run is the embedding of the argument arrays. -/
theorem final_is_embed (c : Dev nD) :
    (dats m 0 c).arrAt 4 cfg0.N
      = embed (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_is_embed m c t) covered

/-- THE KERNEL'S RUN, READ: every weakly fair execution terminates with the result array at the embedding of the
    arguments and the arguments unchanged. -/
theorem run : θ_run defs (onTc (τ := τ) (main (F := Ideal))) ⟨m, fun _ => 0, ρ⟩ fun r => ∀ c : Dev nD,
      r.2.mem ((c : Thread nD τ).loc main_v4)
        = embed (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_is_embed m c), (h c).2⟩) (run_blocks m ρ)

end Cert.KernelIdeal.Hand

end
-- ==== Proof.RefSide.lean ====
/-
  The reference computes the patch embedding.

  The reference re-lays the images by four host operations — drop the unit channel axis, split the 128 rows as 16 × 8 and
  the 2048 columns as 256 × 8, swap the two middle axes so that a patch's grid position comes before its inner offsets, and
  merge (16, 256) into the patch number and (8, 8) into the entry number — and then contracts the entry axis against the
  weight matrix, adds the bias along the channel axis and the positional table along the patch and channel axes. Read at an
  output index `(b, n, e)`, entry `k` of patch `n` is followed back through the four re-layings to the pixel
  `(b, 0, (n / 256) · 8 + k / 8, (n % 256) · 8 + k % 8)`, which is the specification's.
-/
import proofs.«157923_j5523327943160_1_alg».proof.Proof.Gen.ReferenceIdeal.Read
import proofs.«157923_j5523327943160_1_alg».proof.Proof.Spec

noncomputable section

open scoped BigOperators

namespace Cert.ReferenceIdeal.RefValue

open Cert.ReferenceIdeal Cert.ReferenceIdeal.Read Cert.PatchEmbed
open Idealize.ShloMosaic Idealize.ShloMosaic.ValueIdx

/-- The left operand of the contraction at output `(b, n, e)` and contraction coordinate `k`: patch `n` of image `b`, entry `k`. -/
theorem lhs_at (bt : Fin 64) (n : Fin 4096) (e : Fin 256) (k : Fin 64) :
    lidx_main_v4 (ix3 bt n e) k = ix3 bt n k := by
  funext a; match a with | ⟨0, _⟩ => rfl | ⟨1, _⟩ => rfl | ⟨2, _⟩ => rfl

/-- The right operand there: the weight of channel `e` on entry `k`. -/
theorem rhs_at (bt : Fin 64) (n : Fin 4096) (e : Fin 256) (k : Fin 64) :
    ridx_main_v4 (ix3 bt n e) k = ix2 e k := by
  funext a; match a with | ⟨0, _⟩ => rfl | ⟨1, _⟩ => rfl

/-- Un-merging: patch number `n` is grid position `(n / 256, n % 256)`, entry number `k` is inner offset `(k / 8, k % 8)`. -/
theorem unmerge_at (bt : Fin 64) (n : Fin 4096) (k : Fin 64) :
    idx_main_v3 (ix3 bt n k)
      = ix5 bt (⟨n.val / 256, by omega⟩ : Fin 16) (⟨n.val % 256, by omega⟩ : Fin 256) (⟨k.val / 8, by omega⟩ : Fin 8) (⟨k.val % 8, by omega⟩ : Fin 8) := by
  have hb := bt.isLt; have hn := n.isLt; have hk := k.isLt
  funext a; apply Fin.ext
  match a with
  | ⟨0, _⟩ => show ((bt.val * 4096 + n.val) * 64 + k.val) / 262144 = bt.val; omega
  | ⟨1, _⟩ => show ((bt.val * 4096 + n.val) * 64 + k.val) / 16384 % 16 = n.val / 256; omega
  | ⟨2, _⟩ => show ((bt.val * 4096 + n.val) * 64 + k.val) / 64 % 256 = n.val % 256; omega
  | ⟨3, _⟩ => show ((bt.val * 4096 + n.val) * 64 + k.val) / 8 % 8 = k.val / 8; omega
  | ⟨4, _⟩ => show ((bt.val * 4096 + n.val) * 64 + k.val) % 8 = k.val % 8; omega

/-- The swap of the two middle axes. -/
theorem swap_at (bt : Fin 64) (mp : Fin 16) (fp : Fin 256) (p : Fin 8) (q : Fin 8) :
    idx_main_v2 (ix5 bt mp fp p q) = ix5 bt mp p fp q := by
  funext a; match a with | ⟨0, _⟩ => rfl | ⟨1, _⟩ => rfl | ⟨2, _⟩ => rfl | ⟨3, _⟩ => rfl | ⟨4, _⟩ => rfl

/-- Un-splitting: rows `(mp, p)` of 16 × 8 are row `mp · 8 + p`, columns `(fp, q)` of 256 × 8 are column `fp · 8 + q`. -/
theorem unsplit_at (bt : Fin 64) (mp : Fin 16) (p : Fin 8) (fp : Fin 256) (q : Fin 8) :
    idx_main_v1 (ix5 bt mp p fp q)
      = ix3 bt (⟨mp.val * 8 + p.val, by omega⟩ : Fin 128) (⟨fp.val * 8 + q.val, by omega⟩ : Fin 2048) := by
  have hb := bt.isLt; have hmp := mp.isLt; have hp := p.isLt; have hfp := fp.isLt; have hq := q.isLt
  funext a; apply Fin.ext
  match a with
  | ⟨0, _⟩ => show ((((bt.val * 16 + mp.val) * 8 + p.val) * 256 + fp.val) * 8 + q.val) / 262144 = bt.val; omega
  | ⟨1, _⟩ => show ((((bt.val * 16 + mp.val) * 8 + p.val) * 256 + fp.val) * 8 + q.val) / 2048 % 128 = mp.val * 8 + p.val; omega
  | ⟨2, _⟩ => show ((((bt.val * 16 + mp.val) * 8 + p.val) * 256 + fp.val) * 8 + q.val) % 2048 = fp.val * 8 + q.val; omega

/-- The unit channel axis put back. -/
theorem channel_at (bt : Fin 64) (r : Fin 128) (cl : Fin 2048) :
    idx_main_v0 (ix3 bt r cl) = ix4 bt (0 : Fin 1) r cl := by
  have hb := bt.isLt; have hr := r.isLt; have hc := cl.isLt
  funext a; apply Fin.ext
  match a with
  | ⟨0, _⟩ => show ((bt.val * 128 + r.val) * 2048 + cl.val) / 262144 = bt.val; omega
  | ⟨1, _⟩ => rfl
  | ⟨2, _⟩ => show ((bt.val * 128 + r.val) * 2048 + cl.val) / 2048 % 128 = r.val; omega
  | ⟨3, _⟩ => show ((bt.val * 128 + r.val) * 2048 + cl.val) % 2048 = cl.val; omega

/-- Entry `k` of patch `n` of image `b`, followed back through the four re-layings, is the specification's pixel. -/
theorem pixel_at (bt : Fin 64) (n : Fin 4096) (k : Fin 64) :
    idx_main_v0 (idx_main_v1 (idx_main_v2 (idx_main_v3 (ix3 bt n k)))) = ix4 bt (0 : Fin 1) (pixRow n k) (pixCol n k) := by
  rw [unmerge_at, swap_at, unsplit_at, channel_at]

/-- The bias spread along images and patches reads the bias of the channel. -/
theorem bias_at (bt : Fin 64) (n : Fin 4096) (e : Fin 256) :
    idx_main_v5 (idx_main_v6 (ix3 bt n e)) = ix1 e := by
  funext a; match a with | ⟨0, _⟩ => rfl

/-- The positional table spread along images reads its own entry of the patch and channel. -/
theorem pos_at (bt : Fin 64) (n : Fin 4096) (e : Fin 256) :
    idx_main_v8 (ix3 bt n e) = ix3 (0 : Fin 1) n e := by
  funext a; match a with | ⟨0, _⟩ => rfl | ⟨1, _⟩ => rfl | ⟨2, _⟩ => rfl

/-- THE REFERENCE IS THE SPECIFICATION: its last stage, at the ideal values, is the patch embedding of its arguments. -/
theorem ref_is_embed (x0 : (⟨S64x1x128x2048, .f32⟩ : BufTy).Contents (Elt Ideal)) (x1 : (⟨S256x64, .f32⟩ : BufTy).Contents (Elt Ideal))
    (x2 : (⟨S256, .f32⟩ : BufTy).Contents (Elt Ideal)) (x3 : (⟨S1x4096x256, .f32⟩ : BufTy).Contents (Elt Ideal)) :
    val_main_v9 (F := Ideal) x0 x1 x2 x3 = embed x0 x1 x2 x3 := by
  funext i
  obtain ⟨bt, n, e, rfl⟩ : ∃ (bt : Fin 64) (n : Fin 4096) (e : Fin 256), i = ix3 bt n e := ⟨i 0, i 1, i 2, eq_ix3 i⟩
  rw [embed_ix3, val_main_v9_apply, val_main_v7_apply, val_main_v4_apply, val_main_v6_apply, val_main_v5_apply,
    val_main_v8_apply, bias_at, pos_at]
  unfold entry
  simp only [lhs_at, rhs_at, val_main_v3_apply, val_main_v2_apply, val_main_v1_apply, val_main_v0_apply, pixel_at]
  rfl

end Cert.ReferenceIdeal.RefValue

end
-- ==== Proof.lean ====
/-
  A patch-embedding kernel against its reference, on the extended reals.

  Both programs take 64 one-channel images of 128 × 2048 pixels, a weight matrix `W : [256, 64]`, a bias `[256]` and a
  positional table `[1, 4096, 256]`, cut every image into a 16 × 256 grid of 8 × 8 patches, and return, for image `b`,
  patch `n` and channel `e`,

      (Σ_{k < 64} x[b, 0, (n / 256) · 8 + k / 8, (n % 256) · 8 + k % 8] · W[e, k]) + bias[e] + pos[0, n, e]

  (`Cert.PatchEmbed.embed`, Proof/Spec.lean). The reference does it on whole arrays: four re-layings of the images, one
  contraction against `W`, two broadcast additions (Proof/RefSide.lean reads its last stage at an index). The kernel runs
  once per image: the host first drops the unit axes and transposes `W` (Proof/HostPrefix.lean); at grid point `t` the body
  re-lays image `t` into the patch matrix, narrows both factors to bf16 — the identity at the ideal values —, multiplies
  into a zero accumulator, adds the bias row and the positional table (Proof/Payload.lean), and writes block `t` of the
  result; the 64 blocks tile the result array (Proof/Blocks.lean). The two sums run over the same 64 entries in the same
  order and the additions are grouped alike, so no law of the extended reals beyond `0 + s = s` is used and the
  finiteness of the inputs is never needed. The idealization rewrote nothing, so `preserves` is `True`.
-/
import proofs.«157923_j5523327943160_1_alg».proof.Defs
import proofs.«157923_j5523327943160_1_alg».proof.Proof.Gen.Kernel
import proofs.«157923_j5523327943160_1_alg».proof.Proof.Gen.Kernel.Skeleton
import proofs.«157923_j5523327943160_1_alg».proof.Proof.Gen.Kernel.Launch
import proofs.«157923_j5523327943160_1_alg».proof.Proof.Gen.Kernel.Points
import proofs.«157923_j5523327943160_1_alg».proof.Proof.Gen.Kernel.Frame
import proofs.«157923_j5523327943160_1_alg».proof.Proof.Gen.KernelIdeal
import proofs.«157923_j5523327943160_1_alg».proof.Proof.Gen.KernelIdeal.Skeleton
import proofs.«157923_j5523327943160_1_alg».proof.Proof.Gen.KernelIdeal.Launch
import proofs.«157923_j5523327943160_1_alg».proof.Proof.Gen.KernelIdeal.Points
import proofs.«157923_j5523327943160_1_alg».proof.Proof.Gen.KernelIdeal.Frame
import proofs.«157923_j5523327943160_1_alg».proof.Proof.Gen.ReferenceIdeal
import proofs.«157923_j5523327943160_1_alg».proof.Proof.Gen.Pre_finite_inputs
import proofs.«157923_j5523327943160_1_alg».proof.Proof.Gen.KernelIdeal.Value
import proofs.«157923_j5523327943160_1_alg».proof.Proof.Gen.ReferenceIdeal.Run
import proofs.«157923_j5523327943160_1_alg».proof.Proof.Gen.ReferenceIdeal.Read
import proofs.«157923_j5523327943160_1_alg».proof.Proof.Blocks
import proofs.«157923_j5523327943160_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments the kernel's result array ends at the patch embedding of its arguments
    (the blocks assembled) and the reference's at its last stage, which is the patch embedding of its own, equal,
    arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_embed,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
